-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S14336x4096 : Shape := ⟨2, ![14336, 4096]⟩
abbrev S14336 : Shape := ⟨1, ![14336]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S14336 : S_.BroadcastsInDim S14336 (![] : Fin 0 → Fin S14336.rank)
  reducesTo_S14336_S_d0 : S14336.ReducesTo [0] S_

variable [Facts]

def fn {F : FTy → Type} [FloatOps F] (main_arg0 : FVec F S256x4096 .f32) (main_arg1 : IVec S14336x4096 32) (main_arg2 : FVec F S14336 .f32) (main_arg3 : FVec F S14336 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  let main_v9 : FVec F S14336 .f32 := Host.absf main_arg3
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  main_v13
-- ==== Kernel.lean ====
abbrev S256x4096 : Shape := ⟨2, ![256, 4096]⟩
abbrev S14336x4096 : Shape := ⟨2, ![14336, 4096]⟩
abbrev S14336 : Shape := ⟨1, ![14336]⟩
abbrev S1x14336 : Shape := ⟨2, ![1, 14336]⟩
abbrev S256x14336 : Shape := ⟨2, ![256, 14336]⟩
abbrev S512x4096 : Shape := ⟨2, ![512, 4096]⟩
abbrev S1x512 : Shape := ⟨2, ![1, 512]⟩
abbrev S256x512 : Shape := ⟨2, ![256, 512]⟩

abbrev nBuf : Space → Nat
  | .hbm => 8
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336, .f32⟩
  | .hbm, ⟨3, _⟩ => ⟨S14336, .f32⟩
  | .hbm, ⟨4, _⟩ => ⟨S256x4096, .bf16⟩
  | .hbm, ⟨5, _⟩ => ⟨S1x14336, .f32⟩
  | .hbm, ⟨6, _⟩ => ⟨S1x14336, .f32⟩
  | .hbm, ⟨7, _⟩ => ⟨S256x14336, .f32⟩
  | .local _ .vmem, ⟨0, _⟩ => ⟨S256x4096, .bf16⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S14336_S1x14336 : S14336.ShapeCasts S1x14336
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S14336x4096.size a
  hwx0_1 : ∀ i : grid0.Coords, EltTy.bits .i32 = 32 ∨ (Rect.block (s := S14336x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x14336.size a
  hwx0_2 : ∀ i : grid0.Coords, EltTy.bits .f32 = 32 ∨ (Rect.block (s := S1x14336) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x14336.size a
  hwx0_3 : ∀ i : grid0.Coords, EltTy.bits .f32 = 32 ∨ (Rect.block (s := S1x14336) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x14336.size a
  hwx0_4 : ∀ i : grid0.Coords, EltTy.bits .f32 = 32 ∨ (Rect.block (s := S256x14336) S256x512.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4096 : Shape := ⟨2, ![256, 4096]⟩
abbrev S14336x4096 : Shape := ⟨2, ![14336, 4096]⟩
abbrev S14336 : Shape := ⟨1, ![14336]⟩
abbrev S14336x1 : Shape := ⟨2, ![14336, 1]⟩
abbrev S256x14336 : Shape := ⟨2, ![256, 14336]⟩
abbrev S1x14336 : Shape := ⟨2, ![1, 14336]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336, .f32⟩
  | .hbm, ⟨3, _⟩ => ⟨S14336, .f32⟩
  | .hbm, ⟨4, _⟩ => ⟨S14336x4096, .f32⟩
  | .hbm, ⟨5, _⟩ => ⟨S14336x1, .f32⟩
  | .hbm, ⟨6, _⟩ => ⟨S14336x4096, .f32⟩
  | .hbm, ⟨7, _⟩ => ⟨S14336x4096, .f32⟩
  | .hbm, ⟨8, _⟩ => ⟨S256x14336, .f32⟩
  | .hbm, ⟨9, _⟩ => ⟨S1x14336, .f32⟩
  | .hbm, ⟨10, _⟩ => ⟨S256x14336, .f32⟩
  | .hbm, ⟨11, _⟩ => ⟨S256x14336, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S14336_S1x14336_1 : S14336.BroadcastsInDim S1x14336 (![1] : Fin 1 → Fin S1x14336.rank)
  bcast_S1x14336_S256x14336_0_1 : S1x14336.BroadcastsInDim S256x14336 (![0, 1] : Fin 2 → Fin S256x14336.rank)
  dot_S256x4096_S14336x4096_S256x14336_1_1_0_0_n_n_wf : DotDims.WF S256x4096 S14336x4096 S256x14336 [1] [1] [0] [0] [] []

variable [Facts₀]

def dot_S256x4096_S14336x4096_S256x14336_1_1_0_0_n_n : DotDims S256x4096 S14336x4096 S256x14336 where
  lhsContracting := [1]
  rhsContracting := [1]
  lhsNonContracting := [0]
  rhsNonContracting := [0]
  lhsBatch := []
  rhsBatch := []
  wf := dot_S256x4096_S14336x4096_S256x14336_1_1_0_0_n_n_wf

class Facts : Prop extends Facts₀ where

variable [Facts]
-- ==== Proof.Spec.lean ====
/-
  The quantized linear layer as ONE function of its four argument arrays, at the exact (extended-real) reading.

  For a token `t` and an output channel `o`,

      out x w s b (t, o) = (∑ k, x (t, k) · w (o, k)) · s o + b o,

  where the integer weight `w (o, k)` is read exactly as a real. The dot product is taken against the UNSCALED integer
  weights and the channel's scale is applied to the sum; dequantizing first, `∑ k, x (t, k) · (w (o, k) · s o)`, is the
  same number whenever the row of `x` and the scale are finite (`dot_scale`): over the reals a factor moves across a finite
  sum, while on the extended reals an infinite factor need not.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- Tokens × input features. -/
abbrev SX : Shape := ⟨2, ![256, 4096]⟩
/-- Output channels × input features. -/
abbrev SW : Shape := ⟨2, ![14336, 4096]⟩
/-- One entry per output channel. -/
abbrev SC : Shape := ⟨1, ![14336]⟩
/-- Tokens × output channels. -/
abbrev SY : Shape := ⟨2, ![256, 14336]⟩

/-- Entry `(t, o)` of the layer's output: row `t` of `x` against row `o` of the integer weight read exactly, the dot
    product scaled by channel `o`'s scale and shifted by its bias. -/
def out (x : SX.Idx → EReal) (w : SW.Idx → BitVec 32) (s b : SC.Idx → EReal) : SY.Idx → EReal :=
  fun i => (∑ k : Fin 4096, x (ix2 (i 0) k) * (((w (ix2 (i 1) k)).toInt : ℝ) : EReal)) * s (ix1 (i 1)) + b (ix1 (i 1))

/-- `out` at a token `t` and a channel `o` given as coordinates. -/
theorem out_ix2 (x : SX.Idx → EReal) (w : SW.Idx → BitVec 32) (s b : SC.Idx → EReal) (t : Fin 256) (o : Fin 14336) :
    out x w s b (ix2 t o) = (∑ k : Fin 4096, x (ix2 t k) * (((w (ix2 o k)).toInt : ℝ) : EReal)) * s (ix1 o) + b (ix1 o) := rfl

/-- The coercion of the reals into the extended reals commutes with a finite sum. -/
theorem coe_finset_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- Scaling a dot product is the dot product against the scaled weights, when the left factors and the scale are
    finite: everything is then a real, and over the reals multiplication distributes over the sum. -/
theorem dot_scale {n : ℕ} (a : Fin n → EReal) (c : Fin n → ℝ) (s : EReal)
    (ha : ∀ k, ∃ r : ℝ, a k = r) (hs : ∃ r : ℝ, s = r) :
    (∑ k, a k * (c k : EReal)) * s = ∑ k, a k * ((c k : EReal) * s) := by
  obtain ⟨s', rfl⟩ := hs
  choose a' ha' using ha
  simp only [ha', ← EReal.coe_mul, ← coe_finset_sum]
  rw [Finset.sum_mul]
  exact congrArg _ (Finset.sum_congr rfl fun k _ => by ring)

/-- An extended real whose absolute value `max x (-x)` is below `+∞` is a real. -/
theorem real_of_abs_lt_top (x : EReal) (h : max x (-x) < ⊤) : ∃ r : ℝ, x = r := by
  induction x using EReal.rec with
  | bot => simp at h
  | top => simp at h
  | coe r => exact ⟨r, rfl⟩

end Cert.QLinear

end
-- ==== Proof.Finite.lean ====
/-
  What the precondition says of the float arguments: every entry of `x` and of the scale is a real number.

  The precondition is the conjunction, over the three float arguments, of "every entry's absolute value is below `+∞`";
  on the extended reals that leaves exactly the reals.
-/
import proofs.«177455_j38122129719936_2_alg».proof.Pre_finite_inputs
import proofs.«177455_j38122129719936_2_alg».proof.Proof.Spec
import Idealize.ShloMosaic.Lib.ReduceAll

noncomputable section

namespace Cert.QLinear

open Idealize.ShloMosaic Cert.Pre_finite_inputs

variable [Cert.Pre_finite_inputs.Facts]

instance : Subsingleton S_.Idx := ⟨fun a b => funext fun d => d.elim0⟩

/-- The f32 pattern of `+∞` is `⊤`. -/
theorem inf_bits : Ideal.ofBits .f32 0x7F800000#32 = ⊤ := by simp [Ideal.ofBits, Ideal.ieee]

/-- An entry whose absolute value compares below the pattern of `+∞` is a real. -/
theorem real_of_cmp (a : EReal)
    (e : Ideal.cmp .olt (max a (-a)) (Ideal.ofBits .f32 0x7F800000#32) = 1#1) : ∃ r : ℝ, a = r := by
  apply real_of_abs_lt_top
  rw [inf_bits] at e
  by_contra hn
  have e0 : Ideal.cmp .olt (max a (-a)) ⊤ = 0#1 := by simp [Ideal.cmp, hn]
  rw [e0] at e
  exact absurd e (by decide)

/-- Under the precondition every entry of `x` and every entry of the scale is a real. -/
theorem finite_of_pre (x : FVec Ideal S256x4096 .f32) (w : IVec S14336x4096 32) (s b : FVec Ideal S14336 .f32)
    (h : fn (F := Ideal) x w s b = fun _ => 1#1) : (∀ i, ∃ r : ℝ, x i = r) ∧ (∀ i, ∃ r : ℝ, s i = r) := by
  have h0 := congrFun h ValueIdx.ix0
  dsimp only [fn] at h0
  obtain ⟨h12, _⟩ := IntOp.andi_eq_one.1 h0
  obtain ⟨h1, h2⟩ := IntOp.andi_eq_one.1 h12
  exact ⟨fun i => real_of_cmp (x i) (Host.reduce_andi_all _ _ _ _ _ h1 i),
    fun i => real_of_cmp (s i) (Host.reduce_andi_all _ _ _ _ _ h2 i)⟩

end Cert.QLinear

end
-- ==== Proof.RefValue.lean ====
/-
  The reference's result, read index by index, is the layer's function `out` of the argument arrays.

  The reference dequantizes first: its weight is `w (o, k) · s o` (the integer read exactly, the scale broadcast along
  the input features), its result `∑ k, x (t, k) · (w (o, k) · s o) + b o`. When row `t` of `x` and the scale are finite
  the factor `s o` leaves the sum (`dot_scale`), which is `out`.
-/
import proofs.«177455_j38122129719936_2_alg».proof.Proof.Gen.ReferenceIdeal.Read
import proofs.«177455_j38122129719936_2_alg».proof.Proof.Spec

noncomputable section

namespace Cert.QLinear.Ref

open Idealize.ShloMosaic Idealize.ShloMosaic.ValueIdx Cert.ReferenceIdeal Cert.ReferenceIdeal.Read Cert.QLinear

/-- The left operand of the reference's contraction at output `(t, o)` and position `k` is `x (t, k)`. -/
theorem lidx_eq (t : Fin 256) (o : Fin 14336) (k : Fin 4096) : lidx_main_v4 (ix2 t o) k = ix2 t k :=
  funext fun a => by match a with | ⟨0, _⟩ => rfl | ⟨1, _⟩ => rfl

/-- The right operand there is the dequantized weight at `(o, k)`. -/
theorem ridx_eq (t : Fin 256) (o : Fin 14336) (k : Fin 4096) : ridx_main_v4 (ix2 t o) k = ix2 o k :=
  funext fun a => by match a with | ⟨0, _⟩ => rfl | ⟨1, _⟩ => rfl

/-- The scale broadcast along the input features is read at the channel. -/
theorem sidx_eq (o : Fin 14336) (k : Fin 4096) : idx_main_v1 (idx_main_v2 (ix2 o k)) = ix1 o :=
  funext fun a => by match a with | ⟨0, _⟩ => rfl

/-- The bias broadcast along the tokens is read at the channel. -/
theorem bidx_eq (t : Fin 256) (o : Fin 14336) : idx_main_v5 (idx_main_v6 (ix2 t o)) = ix1 o :=
  funext fun a => by match a with | ⟨0, _⟩ => rfl

/-- The dequantized weight at `(o, k)`: the integer read exactly, times channel `o`'s scale. -/
theorem weight_at (x1 : (⟨S14336x4096, .i32⟩ : BufTy).Contents (Elt Ideal)) (x2 : (⟨S14336, .f32⟩ : BufTy).Contents (Elt Ideal))
    (o : Fin 14336) (k : Fin 4096) :
    val_main_v3 (F := Ideal) x1 x2 (ix2 o k) = (((x1 (ix2 o k)).toInt : ℝ) : EReal) * x2 (ix1 o) := by
  rw [val_main_v3_apply, val_main_v2_apply, val_main_v1_apply, val_main_v0_apply, sidx_eq]
  rfl

/-- The reference's result is `out` of its arguments, when `x` and the scale are finite. -/
theorem result_eq (x0 : (⟨S256x4096, .f32⟩ : BufTy).Contents (Elt Ideal)) (x1 : (⟨S14336x4096, .i32⟩ : BufTy).Contents (Elt Ideal))
    (x2 x3 : (⟨S14336, .f32⟩ : BufTy).Contents (Elt Ideal))
    (hx : ∀ i, ∃ r : ℝ, x0 i = r) (hs : ∀ i, ∃ r : ℝ, x2 i = r) :
    val_main_v7 (F := Ideal) x0 x1 x2 x3 = out x0 x1 x2 x3 := by
  funext i
  obtain ⟨t, o, rfl⟩ : ∃ (t : Fin 256) (o : Fin 14336), i = ix2 t o := ⟨i 0, i 1, eq_ix2 i⟩
  rw [val_main_v7_apply, val_main_v4_apply, val_main_v6_apply, val_main_v5_apply, bidx_eq, out_ix2,
    dot_scale _ _ _ (fun k => hx _) (hs _)]
  simp only [lidx_eq, ridx_eq, weight_at]
  rfl

end Cert.QLinear.Ref

end
-- ==== Proof.KerBlocks.lean ====
/-
  The arrays the kernel's region finds, and each window's block at a grid point read at an index.

  The host prepares three arrays before the region: `x` in the narrower float format (the same numbers, exactly), and the
  scale and the bias as one-row matrices. Grid point `t` (of 28) works on output channels `512 t … 512 t + 511`: it sees
  all of `x`, rows `512 t + q` of the weight, and entries `512 t + q` of the scale and the bias rows.
-/
import proofs.«177455_j38122129719936_2_alg».proof.Proof.Gen.KernelIdeal.Value
import proofs.«177455_j38122129719936_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.QLinear.Ker

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The region finds `x` converted to the narrower format: at the exact reading, `x` itself. -/
theorem V_v0 (c : Dev nD) :
    (V m c main_v0 : S256x4096.Idx → EReal) = (m ((c : Thread nD τ).loc main_arg0) : S256x4096.Idx → EReal) := by
  dsimp only [Gen.V, Gen.hostOps0]
  after_results
  rfl

/-- The region finds the scale as a one-row matrix. -/
theorem V_v1 (c : Dev nD) :
    (V m c main_v1 : S1x14336.Idx → EReal)
      = shapeCast S1x14336 (m ((c : Thread nD τ).loc main_arg2) : S14336.Idx → EReal) shapeCasts_S14336_S1x14336 := by
  dsimp only [Gen.V, Gen.hostOps0]
  after_results
  rfl

/-- The region finds the bias as a one-row matrix. -/
theorem V_v2 (c : Dev nD) :
    (V m c main_v2 : S1x14336.Idx → EReal)
      = shapeCast S1x14336 (m ((c : Thread nD τ).loc main_arg3) : S14336.Idx → EReal) shapeCasts_S14336_S1x14336 := by
  dsimp only [Gen.V, Gen.hostOps0]
  after_results
  rfl

/-- The printed index maps over the 28 grid points: the `x` window stays at block (0, 0); the weight window is at row
    block `t`; the scale, bias and output windows are at column block `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The `x` window's block at any point is all of `x`. -/
theorem iblk0_apply (c : Dev nD) (t : Fin cfg0.N) (p : Fin 256) (k : Fin 4096) :
    (iblk m c 0 t : Vec Ideal S256x4096 .bf16) (ix2 p k)
      = (m ((c : Thread nD τ).loc main_arg0) : S256x4096.Idx → EReal) (ix2 p k) := by
  obtain ⟨e0, e1, -⟩ := idx_facts t
  unfold iblk
  rw [View.read_apply]
  show V m c main_v0 _ = _
  rw [V_v0]
  congr 1
  funext a
  apply Fin.ext
  match a with
  | ⟨0, _⟩ => show win0_0.index t 0 * 256 + 1 * p.val = p.val; rw [e0]; omega
  | ⟨1, _⟩ => show win0_0.index t 1 * 4096 + 1 * k.val = k.val; rw [e1]; omega

/-- The weight window's block at point `t` is rows `512 t + q` of the weight. -/
theorem iblk1_apply (c : Dev nD) (t : Fin cfg0.N) (q : Fin 512) (k : Fin 4096) (o : Fin 14336) (ho : o.val = t.val * 512 + q.val) :
    (iblk m c 1 t : Vec Ideal S512x4096 .i32) (ix2 q k)
      = (m ((c : Thread nD τ).loc main_arg1) : S14336x4096.Idx → BitVec 32) (ix2 o k) := by
  obtain ⟨-, -, e0, e1, -⟩ := idx_facts t
  unfold iblk
  rw [View.read_apply]
  show V m c main_arg1 _ = _
  rw [V_main_arg1]
  congr 1
  funext a
  apply Fin.ext
  match a with
  | ⟨0, _⟩ => show win0_1.index t 0 * 512 + 1 * q.val = o.val; rw [e0, ho]; omega
  | ⟨1, _⟩ => show win0_1.index t 1 * 4096 + 1 * k.val = k.val; rw [e1]; omega

/-- The scale window's block at point `t` is entries `512 t + q` of the scale. -/
theorem iblk2_apply (c : Dev nD) (t : Fin cfg0.N) (q : Fin 512) (o : Fin 14336) (ho : o.val = t.val * 512 + q.val) :
    (iblk m c 2 t : Vec Ideal S1x512 .f32) (ix2 (0 : Fin 1) q)
      = (m ((c : Thread nD τ).loc main_arg2) : S14336.Idx → EReal) (ix1 o) := by
  obtain ⟨-, -, -, -, e0, e1, -⟩ := idx_facts t
  unfold iblk
  rw [View.read_apply]
  show V m c main_v1 _ = _
  have hidx : ((cfg0.win 2).blk t).view.emb (ix2 (0 : Fin 1) q) = (ix2 (0 : Fin 1) o : S1x14336.Idx) := by
    funext a
    apply Fin.ext
    match a with
    | ⟨0, _⟩ => show win0_2.index t 0 * 1 + 1 * 0 = 0; rw [e0]
    | ⟨1, _⟩ => show win0_2.index t 1 * 512 + 1 * q.val = o.val; rw [e1, ho]; omega
  refine (congrArg (V m c main_v1) hidx).trans ?_
  rw [V_v1, shapeCast_a_1a_apply]

/-- The bias window's block at point `t` is entries `512 t + q` of the bias. -/
theorem iblk3_apply (c : Dev nD) (t : Fin cfg0.N) (q : Fin 512) (o : Fin 14336) (ho : o.val = t.val * 512 + q.val) :
    (iblk m c 3 t : Vec Ideal S1x512 .f32) (ix2 (0 : Fin 1) q)
      = (m ((c : Thread nD τ).loc main_arg3) : S14336.Idx → EReal) (ix1 o) := by
  obtain ⟨-, -, -, -, -, -, e0, e1, -⟩ := idx_facts t
  unfold iblk
  rw [View.read_apply]
  show V m c main_v2 _ = _
  have hidx : ((cfg0.win 3).blk t).view.emb (ix2 (0 : Fin 1) q) = (ix2 (0 : Fin 1) o : S1x14336.Idx) := by
    funext a
    apply Fin.ext
    match a with
    | ⟨0, _⟩ => show win0_3.index t 0 * 1 + 1 * 0 = 0; rw [e0]
    | ⟨1, _⟩ => show win0_3.index t 1 * 512 + 1 * q.val = o.val; rw [e1, ho]; omega
  refine (congrArg (V m c main_v2) hidx).trans ?_
  rw [V_v2, shapeCast_a_1a_apply]

end Cert.QLinear.Ker

end
-- ==== Proof.KerPayload.lean ====
/-
  The kernel body's arithmetic, read at an index of its (256, 512) output block.

  At token `p` and local channel `q` the body computes the dot product of row `p` of the `x` block with row `q` of the
  integer weight block (each integer read exactly), multiplies it by the scale block's entry `q` and adds the bias
  block's entry `q`: the matrix product is a plain sum over the 4096 input features, and the two (1, 512) rows are
  broadcast over the 256 tokens.
-/
import proofs.«177455_j38122129719936_2_alg».proof.Proof.Gen.KernelIdeal.Skeleton
import proofs.«177455_j38122129719936_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.QLinear.Ker

open Idealize.ShloMosaic Idealize.ShloMosaic.ValueIdx Cert.KernelIdeal Cert.KernelIdeal.Gen

/-- The product's left operand index keeps the output's token coordinate. -/
theorem lhs_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide),
    dif_pos (show (0 : Fin S256x4096.rank) ∈ dot_S256x4096_S512x4096_S256x512_1_1_0_0_n_n.lhsNonContracting by decide)]
  rfl

/-- Its feature coordinate is the contraction index. -/
theorem lhs_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q

/-- The right operand index takes the output's channel coordinate as its row. -/
theorem rhs_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide),
    dif_pos (show (0 : Fin S512x4096.rank) ∈ dot_S256x4096_S512x4096_S256x512_1_1_0_0_n_n.rhsNonContracting by decide)]
  rfl

/-- Its feature coordinate is the contraction index. -/
theorem rhs_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- The body's matrix product into a zero accumulator, at `(p, q)`: the sum over the features of row `p` of the left
    block times row `q` of the right block (both operands are contracted along their second axis). -/
theorem matmul_at (l : FVec Ideal S256x4096 .bf16) (r : FVec Ideal S512x4096 .bf16) (p : Fin 256) (q : Fin 512) :
    matmul dot_S256x4096_S512x4096_S256x512_1_1_0_0_n_n none l r (constant S256x512 .f32 0x00000000#32) (ix2 p q)
      = ∑ k : Fin 4096, l (ix2 p k) * r (ix2 q k) := by
  simp only [matmul]
  rw [Ideal.matmul_constant_zero_apply,
    ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p q)
      ((ValueIdx.contrEquiv1 dot_S256x4096_S512x4096_S256x512_1_1_0_0_n_n 4096 rfl rfl).symm k) = ix2 p k :=
    funext fun a => Fin.ext (by
      match a with
      | ⟨0, _⟩ => exact lhs_0 _ _
      | ⟨1, _⟩ => exact (lhs_1 _ _).trans hk)
  have er : dot_S256x4096_S512x4096_S256x512_1_1_0_0_n_n.rhsIdx (ix2 p q)
      ((ValueIdx.contrEquiv1 dot_S256x4096_S512x4096_S256x512_1_1_0_0_n_n 4096 rfl rfl).symm k) = ix2 q k :=
    funext fun a => Fin.ext (by
      match a with
      | ⟨0, _⟩ => exact rhs_0 _ _
      | ⟨1, _⟩ => exact (rhs_1 _ _).trans hk)
  rw [el, er]

/-- The body's stored value at token `p` and local channel `q`, from the four loaded blocks. -/
theorem pay_at (v0 : Vec Ideal S256x4096 .bf16) (v2 : Vec Ideal S512x4096 .i32) (v5 v9 : Vec Ideal S1x512 .f32)
    (p : Fin 256) (q : Fin 512) :
    k0_pay1 (F := Ideal) v0 v2 v5 v9 (ix2 p q)
      = (∑ k : Fin 4096, v0 (ix2 p k) * (((v2 (ix2 q k)).toInt : ℝ) : EReal)) * v5 (ix2 (0 : Fin 1) q) + v9 (ix2 (0 : Fin 1) q) := by
  unfold k0_pay1
  simp only [addf_apply, mulf_apply, shapeCast_self]
  rw [matmul_at, broadcastTo_1b_ab_apply, broadcastTo_1b_ab_apply]
  rfl

end Cert.QLinear.Ker

end
-- ==== Proof.KerValue.lean ====
/-
  The kernel's result array after its run is the layer's function `out` of the argument arrays.

  Grid point `t` writes back the (256, 512) block of output channels `512 t … 512 t + 511`, and what it writes is that
  block of `out`: its four input blocks are the pieces of the arguments that `out` reads there (`block_eq`). The 28
  blocks tile the array — channel `o` lies in block `o / 512` — so the whole array ends at `out`.
-/
import proofs.«177455_j38122129719936_2_alg».proof.Proof.KerBlocks
import proofs.«177455_j38122129719936_2_alg».proof.Proof.KerPayload

noncomputable section

namespace Cert.QLinear.Ker

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The body loads and stores its whole blocks: the offsets are zero on both axes. -/
theorem hz : (![0, 0] : Fin 2 → Nat) = fun _ => 0 := funext fun a => by fin_cases a <;> rfl

/-- A block of the output computed from input blocks that are the stated pieces of four arrays — all of the first, rows
    `512 n + q` of the second, entries `512 n + q` of the third and fourth — is, at local index `y`, the value of `out`
    of those arrays at the array index `i` with the same token and with channel `512 n + y₁`. -/
theorem block_eq (x0 : Vec Ideal S256x4096 .bf16) (x1 : Vec Ideal S512x4096 .i32) (x2 x3 : Vec Ideal S1x512 .f32)
    (A0 : SX.Idx → EReal) (A1 : SW.Idx → BitVec 32) (A2 A3 : SC.Idx → EReal) (n : Nat)
    (h0 : ∀ (p : Fin 256) (k : Fin 4096), x0 (ix2 p k) = A0 (ix2 p k))
    (h1 : ∀ (q : Fin 512) (k : Fin 4096) (o : Fin 14336), o.val = n * 512 + q.val → x1 (ix2 q k) = A1 (ix2 o k))
    (h2 : ∀ (q : Fin 512) (o : Fin 14336), o.val = n * 512 + q.val → x2 (ix2 (0 : Fin 1) q) = A2 (ix1 o))
    (h3 : ∀ (q : Fin 512) (o : Fin 14336), o.val = n * 512 + q.val → x3 (ix2 (0 : Fin 1) q) = A3 (ix1 o))
    (y : S256x512.Idx) (i : SY.Idx) (hi0 : (i 0).val = (y 0).val) (hi1 : (i 1).val = n * 512 + (y 1).val) :
    k0_pay1 (F := Ideal) x0 x1 x2 x3 y = out A0 A1 A2 A3 i := by
  obtain ⟨p, q, rfl⟩ : ∃ (p : Fin 256) (q : Fin 512), y = ix2 p q := ⟨y 0, y 1, eq_ix2 y⟩
  obtain ⟨t, o, rfl⟩ : ∃ (t : Fin 256) (o : Fin 14336), i = ix2 t o := ⟨i 0, i 1, eq_ix2 i⟩
  have ht : t = p := Fin.ext hi0
  subst ht
  rw [pay_at, out_ix2, h2 q o hi1, h3 q o hi1]
  simp only [h0, h1 _ _ o hi1]

/-- The layer's output of the argument arrays as launched. -/
abbrev result (c : Dev nD) : S256x14336.Idx → EReal :=
  out (m ((c : Thread nD τ).loc main_arg0)) (m ((c : Thread nD τ).loc main_arg1))
    (m ((c : Thread nD τ).loc main_arg2)) (m ((c : Thread nD τ).loc main_arg3))

/-- What point `t` writes back is block `t` of `result`. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S256x4096) hz, View.ld_unit_zero (S := S512x4096) hz, View.ld_unit_zero (S := S1x512) hz]
  funext j
  show k0_pay1 (F := Ideal) (iblk m c 0 t) (iblk m c 1 t) (iblk m c 2 t) (iblk m c 3 t) j
    = result m c (((cfg0.win 4).blk t).view.emb j)
  obtain ⟨-, -, -, -, -, -, -, -, e0, e1⟩ := idx_facts t
  refine block_eq _ _ _ _ _ _ _ _ t.val (fun p k => iblk0_apply m c t p k) (fun q k o ho => iblk1_apply m c t q k o ho)
    (fun q o ho => iblk2_apply m c t q o ho) (fun q o ho => iblk3_apply m c t q o ho) j _ ?_ ?_
  · show win0_4.index t 0 * 256 + 1 * (j 0).val = (j 0).val
    rw [e0]; omega
  · show win0_4.index t 1 * 512 + 1 * (j 1).val = t.val * 512 + (j 1).val
    rw [e1]; omega

/-- An index of the array is in point `t`'s block iff each coordinate is in the block's range on its axis. -/
theorem mem_blk (t : Fin cfg0.N) (i : S256x14336.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v3).slice (win0_4.rect t)).set ↔ _
  rw [View.set_slice_whole, Rect.mem_set_unit]
  exact Iff.rfl

/-- Every index of the array is in some point's block: channel `o` is in block `o / 512`. -/
theorem cover (i : S256x14336.Idx) :
    ∃ t : Fin cfg0.N, (cfg0.win 4).flush t = true ∧ i ∈ ((cfg0.win 4).blk t).view.set := by
  have hi0 : (i 0).val < 256 := (i 0).isLt
  have hi1 : (i 1).val < 14336 := (i 1).isLt
  have hN : cfg0.N = 28 := N_0
  obtain ⟨t, ht⟩ : ∃ t : Fin cfg0.N, t.val = (i 1).val / 512 := ⟨⟨(i 1).val / 512, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t 0 * 256 ≤ (i 0).val ∧ (i 0).val < win0_4.index t 0 * 256 + 256
    rw [e0]; omega
  | ⟨1, _⟩ =>
    show win0_4.index t 1 * 512 ≤ (i 1).val ∧ (i 1).val < win0_4.index t 1 * 512 + 512
    rw [e1, ht]; omega

/-- The result array after the run is `result`. -/
theorem final (c : Dev nD) : (dats m 0 c).arrAt 4 cfg0.N = result m c :=
  (dats m 0 c).arrAt_eq_of_cover 4 (result m c) (fun t _ => flushed_eq m c t) cover

/-- The kernel's run: it terminates with the result array at `result` and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.QLinear.Ker

end
-- ==== Proof.lean ====
/-
  A quantized linear layer: `y = x · Wᵀ · diag(scale) + bias` with an integer weight `W`, as a tiled kernel and as a plain
  reference, equal over the extended reals when `x` and the scale are finite.

  Both programs compute, for a token `t` and an output channel `o`, from `x : [256, 4096]`, the integer weight
  `w : [14336, 4096]` and the per-channel `scale, bias : [14336]`:
    * the kernel, in 28 blocks of 512 channels: `(∑ k, x (t, k) · w (o, k)) · scale o + bias o` — the integers read exactly,
      the dot product taken against the unscaled weight and the scale applied to the sum (Proof/KerPayload.lean reads the
      body at an index, Proof/KerBlocks.lean each block as a piece of the arguments, Proof/KerValue.lean the whole array);
    * the reference: `∑ k, x (t, k) · (w (o, k) · scale o) + bias o` — the weight dequantized first (Proof/RefValue.lean).
  Changing the float format of `x` is the identity at the exact reading, and the order of a finite sum does not matter.
  The two differ by moving the factor `scale o` across the sum, which holds for real factors and can fail for infinite
  ones; the precondition makes every entry of `x` and of the scale a real (Proof/Finite.lean), and the law is
  Proof/Spec.lean's `dot_scale`. The bias is added last on both sides and may be any extended real.

  The three frames are the generated ones (the reference's is its generated run with the result dropped); the idealization
  rewrote nothing, so `preserves` is trivial.
-/
import proofs.«177455_j38122129719936_2_alg».proof.Defs
import proofs.«177455_j38122129719936_2_alg».proof.Proof.Gen.Kernel
import proofs.«177455_j38122129719936_2_alg».proof.Proof.Gen.Kernel.Skeleton
import proofs.«177455_j38122129719936_2_alg».proof.Proof.Gen.Kernel.Launch
import proofs.«177455_j38122129719936_2_alg».proof.Proof.Gen.Kernel.Points
import proofs.«177455_j38122129719936_2_alg».proof.Proof.Gen.Kernel.Frame
import proofs.«177455_j38122129719936_2_alg».proof.Proof.Gen.KernelIdeal
import proofs.«177455_j38122129719936_2_alg».proof.Proof.Gen.KernelIdeal.Skeleton
import proofs.«177455_j38122129719936_2_alg».proof.Proof.Gen.KernelIdeal.Launch
import proofs.«177455_j38122129719936_2_alg».proof.Proof.Gen.KernelIdeal.Points
import proofs.«177455_j38122129719936_2_alg».proof.Proof.Gen.KernelIdeal.Frame
import proofs.«177455_j38122129719936_2_alg».proof.Proof.Gen.ReferenceIdeal
import proofs.«177455_j38122129719936_2_alg».proof.Proof.Gen.Pre_finite_inputs
import proofs.«177455_j38122129719936_2_alg».proof.Proof.Gen.KernelIdeal.Value
import proofs.«177455_j38122129719936_2_alg».proof.Proof.Gen.ReferenceIdeal.Run
import proofs.«177455_j38122129719936_2_alg».proof.Proof.Gen.ReferenceIdeal.Read
import proofs.«177455_j38122129719936_2_alg».proof.Proof.Finite
import proofs.«177455_j38122129719936_2_alg».proof.Proof.RefValue
import proofs.«177455_j38122129719936_2_alg».proof.Proof.KerValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the kernel read exactly. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `out` of the arguments: the
    kernel's by its run read block by block, the reference's by its run read index by index and the scale moved across
    the sum, `x` and the scale being finite by the precondition. -/
theorem algebraic : Cert.algebraic_KernelIdeal_ReferenceIdeal := by
  intro m ρ m' ρ' hpre hagree
  refine ⟨fun c => Cert.QLinear.Ker.result m c, Cert.QLinear.Ker.run m ρ, ?_⟩
  refine (θ_run Cert.ReferenceIdeal.defs _ _).mono (fun _ h c => ⟨?_, (h c).2⟩)
    (Cert.ReferenceIdeal.Value.run (F := Ideal) m' ρ')
  obtain ⟨hx, hs⟩ := Cert.QLinear.finite_of_pre _ _ _ _ (hpre c)
  rw [(h c).1, Cert.ReferenceIdeal.Read.val_main_v7_eq, (hagree c).1, (hagree c).2.1, (hagree c).2.2.1, (hagree c).2.2.2]
  exact Cert.QLinear.Ref.result_eq _ _ _ _ hx hs

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
